-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) (main_arg2 : IVec S8192x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S1x1 : Shape := ⟨2, ![1, 1]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S_ : Shape := ⟨0, ![]⟩
abbrev S33554432 : Shape := ⟨1, ![33554432]⟩

abbrev nBuf : Space → Nat
  | .hbm => 13
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .i32⟩
  | .hbm, ⟨3, _⟩ => ⟨S8192x4096, .f32⟩
  | .hbm, ⟨4, _⟩ => ⟨S8192x4096, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S33554432, .f32⟩
  | .hbm, ⟨12, _⟩ => ⟨S33554432, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .i32⟩
  | .local _ .vmem, ⟨5, _⟩ => ⟨S128x4096, .i32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S1x1, .f32⟩
  | .local _ .vmem, ⟨11, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  natLt_1_32 : 1 < 32
  shapeCasts_S1x1_S1x1 : S1x1.ShapeCasts S1x1
  shapeCasts_S1x1_S_ : S1x1.ShapeCasts S_
  shapeCasts_S8192x4096_S33554432 : S8192x4096.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .i32 = 32 ∨ (Rect.block (s := S8192x4096) S128x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S33554432 : Shape := ⟨1, ![33554432]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .i32⟩
  | .hbm, ⟨3, _⟩ => ⟨S_, .i32⟩
  | .hbm, ⟨4, _⟩ => ⟨S8192x4096, .i32⟩
  | .hbm, ⟨5, _⟩ => ⟨S8192x4096, .i1⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S33554432, .f32⟩
  | .hbm, ⟨33, _⟩ => ⟨S_, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S33554432, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_call2_v0 : Ref sig .tc := ⟨.hbm, 34, rfl⟩
abbrev main_call2_v1 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  natLt_1_32 : 1 < 32
  reducesTo_S8192x4096_S_d0_1 : S8192x4096.ReducesTo [0, 1] S_
  h_S_ : 0 < S_.numel
  shapeCasts_S8192x4096_S33554432 : S8192x4096.ShapeCasts S33554432

variable [Facts₀]

class Facts : Prop extends Facts₀ where

variable [Facts]
-- ==== Proof.Pieces.lean ====
import proofs.«102014_j33638183862597_1_alg».proof.Proof.Gen.KernelIdeal.Frame
import Idealize.ShloMosaic.Lib.Pipeline.Value
import Idealize.ShloMosaic.Lib.Tactic
/-!
# What one run of the body leaves in each output's staging buffer

At every grid point the body loads the three input blocks whole (`pred`, `labels`, `scores`: 128 rows of 4096
columns) and stores, whole: into the two array outputs the kept entries of the `pred` and `labels` blocks; into the two
one-element accumulators what they held plus the tile's sum of kept losses and the tile's number of kept entries. At the
first point the accumulators are first set to zero and read back, at a later point they continue from what the point
before left. Each statement below names what a buffer holds as the body's pure payload of the loaded blocks, at any
float instance.
-/

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of every load and store of the body are zero. -/
theorem hz : (![0, 0] : Fin 2 → Nat) = fun _ => 0 := funext fun a => by fin_cases a <;> rfl

variable (c : Dev nD) (i : grid0.Coords)
  (a1 : Memref sig .tc .vmem S128x4096 .f32) (h1 : a1.IsWhole) (a2 : Memref sig .tc .vmem S128x4096 .f32) (h2 : a2.IsWhole)
  (a3 : Memref sig .tc .vmem S128x4096 .i32) (h3 : a3.IsWhole) (a4 : Memref sig .tc .vmem S128x4096 .f32) (h4 : a4.IsWhole)
  (a5 : Memref sig .tc .vmem S128x4096 .f32) (h5 : a5.IsWhole) (a6 : Memref sig .tc .vmem S1x1 .f32) (h6 : a6.IsWhole)
  (a7 : Memref sig .tc .vmem S1x1 .f32) (h7 : a7.IsWhole)
  (x0 x1 : Vec F S128x4096 .f32) (x2 : Vec F S128x4096 .i32) (xo5 xo6 : Vec F S1x1 .f32)

/-! ## A later point (not the first): the two accumulators continue from what they held -/

/-- The first array output's buffer is left holding the kept entries of the `pred` block. -/
theorem later_pred (hc : ¬cond0_0 i) : out0_B_3 c i a1 h1 a2 h2 a3 h3 a4 h4 a5 h5 a6 h6 a7 h7 hc x0 x1 x2 xo5 xo6 = k0_pay6 x0 x2 := by
  unfold out0_B_3
  rw [View.read_writes_eq_canon _ _ _ (cover0_B_3 c i a1 h1 a2 h2 a3 h3 a4 h4 a5 h5 a6 h6 a7 h7 hc x0 x1 x2 xo5 xo6)]
  unfold kernelRun0_B
  dsimp only
  rw [View.canon_unit_zero hz]
  simp only [View.readAt_eq_ld, h1.read_unread, h2.read_unread, h3.read_unread, h6.read_unread, h7.read_unread, View.ld_unit_zero (S := S128x4096) hz, View.ld_unit_zero (S := S1x1) hz]

/-- The second array output's buffer is left holding the kept entries of the `labels` block. -/
theorem later_labels (hc : ¬cond0_0 i) : out0_B_4 c i a1 h1 a2 h2 a3 h3 a4 h4 a5 h5 a6 h6 a7 h7 hc x0 x1 x2 xo5 xo6 = k0_pay7 x1 x2 := by
  unfold out0_B_4
  rw [View.read_writes_eq_canon _ _ _ (cover0_B_4 c i a1 h1 a2 h2 a3 h3 a4 h4 a5 h5 a6 h6 a7 h7 hc x0 x1 x2 xo5 xo6)]
  unfold kernelRun0_B
  dsimp only
  rw [View.canon_unit_zero hz]
  simp only [View.readAt_eq_ld, h1.read_unread, h2.read_unread, h3.read_unread, h6.read_unread, h7.read_unread, View.ld_unit_zero (S := S128x4096) hz, View.ld_unit_zero (S := S1x1) hz]

/-- The loss accumulator is left at what it held plus the tile's sum of kept losses. -/
theorem later_total (hc : ¬cond0_0 i) : out0_B_5 c i a1 h1 a2 h2 a3 h3 a4 h4 a5 h5 a6 h6 a7 h7 hc x0 x1 x2 xo5 xo6 = k0_pay1 (k0_pay8 x0 x1 x2) xo5 := by
  unfold out0_B_5
  rw [View.read_writes_eq_canon _ _ _ (cover0_B_5 c i a1 h1 a2 h2 a3 h3 a4 h4 a5 h5 a6 h6 a7 h7 hc x0 x1 x2 xo5 xo6)]
  unfold kernelRun0_B
  dsimp only
  sl_unfold_words
  rw [View.canon_unit_zero hz]
  simp only [View.readAt_eq_ld, h1.read_unread, h2.read_unread, h3.read_unread, h6.read_unread, h7.read_unread, View.ld_unit_zero (S := S128x4096) hz, View.ld_unit_zero (S := S1x1) hz]

/-- The count accumulator is left at what it held plus the tile's number of kept entries. -/
theorem later_count (hc : ¬cond0_0 i) : out0_B_6 c i a1 h1 a2 h2 a3 h3 a4 h4 a5 h5 a6 h6 a7 h7 hc x0 x1 x2 xo5 xo6 = k0_pay2 (k0_pay9 x2) xo6 := by
  unfold out0_B_6
  rw [View.read_writes_eq_canon _ _ _ (cover0_B_6 c i a1 h1 a2 h2 a3 h3 a4 h4 a5 h5 a6 h6 a7 h7 hc x0 x1 x2 xo5 xo6)]
  unfold kernelRun0_B
  dsimp only
  sl_unfold_words
  rw [View.canon_unit_zero hz]
  simp only [View.readAt_eq_ld, h1.read_unread, h2.read_unread, h3.read_unread, h6.read_unread, h7.read_unread, View.ld_unit_zero (S := S128x4096) hz, View.ld_unit_zero (S := S1x1) hz]

/-! ## The first point: the two accumulators are zeroed, read back, and then continued -/

theorem first_pred (hc : cond0_0 i) : out0_A_3 c i a1 h1 a2 h2 a3 h3 a4 h4 a5 h5 a6 h6 a7 h7 hc x0 x1 x2 = k0_pay6 x0 x2 := by
  unfold out0_A_3
  rw [View.read_writes_eq_canon _ _ _ (cover0_A_3 c i a1 h1 a2 h2 a3 h3 a4 h4 a5 h5 a6 h6 a7 h7 hc x0 x1 x2)]
  unfold kernelRun0_A
  dsimp only
  rw [View.canon_unit_zero hz]
  simp only [View.readAt_eq_ld, h1.read_unread, h2.read_unread, h3.read_unread, h6.read_unread, h7.read_unread, View.ld_unit_zero (S := S128x4096) hz, View.ld_unit_zero (S := S1x1) hz]

theorem first_labels (hc : cond0_0 i) : out0_A_4 c i a1 h1 a2 h2 a3 h3 a4 h4 a5 h5 a6 h6 a7 h7 hc x0 x1 x2 = k0_pay7 x1 x2 := by
  unfold out0_A_4
  rw [View.read_writes_eq_canon _ _ _ (cover0_A_4 c i a1 h1 a2 h2 a3 h3 a4 h4 a5 h5 a6 h6 a7 h7 hc x0 x1 x2)]
  unfold kernelRun0_A
  dsimp only
  rw [View.canon_unit_zero hz]
  simp only [View.readAt_eq_ld, h1.read_unread, h2.read_unread, h3.read_unread, h6.read_unread, h7.read_unread, View.ld_unit_zero (S := S128x4096) hz, View.ld_unit_zero (S := S1x1) hz]

theorem first_total (hc : cond0_0 i) : out0_A_5 c i a1 h1 a2 h2 a3 h3 a4 h4 a5 h5 a6 h6 a7 h7 hc x0 x1 x2 = k0_pay1 (k0_pay8 x0 x1 x2) (k0_pay3 (F := F)) := by
  unfold out0_A_5
  rw [View.read_writes_eq_canon _ _ _ (cover0_A_5 c i a1 h1 a2 h2 a3 h3 a4 h4 a5 h5 a6 h6 a7 h7 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h6.read_unread, h7.read_unread, View.ld_unit_zero (S := S128x4096) hz, View.ld_unit_zero (S := S1x1) hz]

theorem first_count (hc : cond0_0 i) : out0_A_6 c i a1 h1 a2 h2 a3 h3 a4 h4 a5 h5 a6 h6 a7 h7 hc x0 x1 x2 = k0_pay2 (k0_pay9 x2) (k0_pay4 (F := F)) := by
  unfold out0_A_6
  rw [View.read_writes_eq_canon _ _ _ (cover0_A_6 c i a1 h1 a2 h2 a3 h3 a4 h4 a5 h5 a6 h6 a7 h7 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h6.read_unread, h7.read_unread, View.ld_unit_zero (S := S128x4096) hz, View.ld_unit_zero (S := S1x1) hz]

end Cert.KernelIdeal.Pieces

end
-- ==== Proof.LibTileSum.lean ====
import Mathlib

/-!
# Regrouping a masked, tiled sum

General lemmas over an additive commutative monoid `M` (only commutativity and
associativity of `+` are used: no subtraction, no cancellation).

* `accum` is a running sum that restarts from zero at every multiple of 32;
  `accum_block` evaluates it at the end of a block of 32 and `accum_two` adds the
  two blocks that make up 64 consecutive terms.
* `masked_tile_sum` regroups a sum over 64 tiles of 128 rows and 4096 columns, in
  which the last row and the last column are replaced by zero, as a single sum over
  8191 rows and 4095 columns.
-/

open Finset

namespace Cert.Rosen

variable {M : Type*} [AddCommMonoid M]

/-- The running sum of T, restarted from zero at every multiple of 32. -/
def accum (T : ℕ → M) : ℕ → M
  | 0 => 0 + T 0
  | n + 1 => if (n + 1) % 32 = 0 then 0 + T (n + 1) else accum T n + T (n + 1)

/-- At a multiple of 32 the running sum restarts: it is just the current term. -/
theorem accum_reset (T : ℕ → M) (n : ℕ) (h : n % 32 = 0) : accum T n = T n := by
  cases n with
  | zero => simp only [accum, zero_add]
  | succ n => simp only [accum, h, if_true, zero_add]

/-- Away from the multiples of 32 the running sum adds the current term to the
previous value. -/
theorem accum_step (T : ℕ → M) (n : ℕ) (h : (n + 1) % 32 ≠ 0) :
    accum T (n + 1) = accum T n + T (n + 1) := by
  simp only [accum, h, if_false]

/-- Inside the block that starts at `32 * p`, the running sum at offset `k ≤ 31` is
the sum of the first `k + 1` terms of the block: the restart happens exactly at
offset `0`, and no other offset `≤ 31` is a multiple of 32. -/
theorem accum_prefix (T : ℕ → M) (p k : ℕ) (hk : k ≤ 31) :
    accum T (32 * p + k) = ∑ i ∈ range (k + 1), T (32 * p + i) := by
  induction k with
  | zero =>
    rw [accum_reset T (32 * p + 0) (by omega)]
    simp only [zero_add, sum_range_one]
  | succ k ih =>
    have hne : (32 * p + k + 1) % 32 ≠ 0 := by omega
    rw [← add_assoc, accum_step T (32 * p + k) hne, ih (by omega),
      sum_range_succ _ (k + 1), add_assoc]

/-- At the end of the block of 32 that starts at `32 * p`, the running sum is the sum
of the 32 terms of that block. -/
theorem accum_block (T : ℕ → M) (p : ℕ) :
    accum T (32 * p + 31) = ∑ i : Fin 32, T (32 * p + i.val) := by
  rw [accum_prefix T p 31 le_rfl]
  exact (Fin.sum_univ_eq_sum_range (fun i => T (32 * p + i)) 32).symm

/-- The values of the running sum at the ends of the first two blocks of 32 add up to
the sum of the first 64 terms: `range 64` is `range 32` followed by its shift by 32. -/
theorem accum_two (T : ℕ → M) : accum T 31 + accum T 63 = ∑ t : Fin 64, T t.val := by
  have h0 : accum T 31 = ∑ i ∈ range 32, T i := by
    have := accum_prefix T 0 31 le_rfl
    simpa only [Nat.mul_zero, zero_add] using this
  have h1 : accum T 63 = ∑ i ∈ range 32, T (32 + i) := by
    have := accum_prefix T 1 31 le_rfl
    simpa only [Nat.mul_one] using this
  rw [h0, h1, Fin.sum_univ_eq_sum_range (fun i => T i) 64]
  exact (sum_range_add (fun i => T i) 32 32).symm

/-- A sum over `m = n + 1` indices whose last term is replaced by zero is the sum
over the first `n` indices. -/
theorem sum_mask_last {n m : ℕ} (h : m = n + 1) (f : ℕ → M) :
    ∑ i : Fin m, (if i.val < n then f i.val else 0) = ∑ i : Fin n, f i.val := by
  subst h
  rw [Fin.sum_univ_castSucc]
  simp only [Fin.coe_castSucc, Fin.is_lt, if_true, Fin.val_last, lt_irrefl, if_false,
    add_zero]

/-- Tiling: a sum over `m = a * b` consecutive indices, cut into `a` tiles of `b`
indices each (index `b * t + r` is position `r` of tile `t`). -/
theorem sum_tile {a b m : ℕ} (h : m = a * b) (F : ℕ → M) :
    ∑ t : Fin a, ∑ r : Fin b, F (b * t.val + r.val) = ∑ R : Fin m, F R.val := by
  subst h
  rw [← Equiv.sum_comp finProdFinEquiv (fun R : Fin (a * b) => F R.val),
    Fintype.sum_prod_type]
  refine sum_congr rfl fun t _ => sum_congr rfl fun r _ => ?_
  simp only [finProdFinEquiv_apply_val]
  rw [add_comm]

/-- One masked row: with the last of 4096 columns set to zero, and the whole row set
to zero when the row index is not below 8191, the row sum is the sum of the first
4095 columns if the row index is below 8191 and zero otherwise. -/
theorem sum_mask_row (g : ℕ → ℕ → M) (R : ℕ) :
    ∑ c : Fin 4096, (if c.val < 4095 ∧ R < 8191 then g R c.val else 0)
      = if R < 8191 then ∑ C : Fin 4095, g R C.val else 0 := by
  by_cases hR : R < 8191
  · simp only [hR, and_true, if_true]
    exact sum_mask_last (by norm_num) (fun c => g R c)
  · simp only [hR, and_false, if_false, sum_const_zero]

/-- Summing, over 64 tiles of 128 rows and 4096 columns, the entries `g (128 * t + r) c`
with the last row (index 8191) and the last column (index 4095) replaced by zero, gives
the sum of `g` over the 8191 × 4095 unmasked entries. -/
theorem masked_tile_sum (g : ℕ → ℕ → M) :
    ∑ t : Fin 64, ∑ r : Fin 128, ∑ c : Fin 4096,
        (if c.val < 4095 ∧ 128 * t.val + r.val < 8191 then g (128 * t.val + r.val) c.val else 0)
      = ∑ R : Fin 8191, ∑ C : Fin 4095, g R.val C.val := by
  -- the 64 tiles of 128 rows are the 8192 rows `128 * t + r`
  refine (sum_tile (a := 64) (b := 128) (m := 8192) (by norm_num)
    (fun R => ∑ c : Fin 4096, (if c.val < 4095 ∧ R < 8191 then g R c.val else 0))).trans ?_
  -- each row drops its last column, and is zero unless the row index is below 8191
  simp only [sum_mask_row]
  -- the last of the 8192 rows is zero
  exact sum_mask_last (by norm_num) (fun R => ∑ C : Fin 4095, g R C.val)

end Cert.Rosen
-- ==== Proof.Spec.lean ====
import Idealize.ShloMosaic.Lib.ValueIdx
import Idealize.ShloMosaic.PureOps.Ideal.Laws
import proofs.«102014_j33638183862597_1_alg».proof.Proof.LibTileSum

/-!
# The masked loss, as functions of the three argument arrays

`pred` and `labels` are arrays of extended reals and `scores` an array of 32-bit words, all of shape
[8192, 4096]. An entry is KEPT when its score is the word `1`.

* `keep s a` is `a` when the score `s` is `1` and zero otherwise; the two array results are
  `keep (scores j) (pred j)` and `keep (scores j) (labels j)`, flattened row-major.
* `bce x y = max x 0 - x * y + log (1 + exp (-|x|))` is the per-entry loss, `|x|` written `max x (-x)`.
* `total` is the sum over ALL entries of the kept losses, `count` the sum over all entries of the
  mask bit read as a number, and the scalar result is `total / count / count`.

The one law used between the two programs is a regrouping of a sum over the [8192, 4096] entries
as 64 tiles of 128 rows of 4096 columns (`sum_tiles`): only commutativity and associativity of `+`.
-/

noncomputable section

namespace Cert.MaskedLoss

open Idealize.ShloMosaic Idealize.ShloMosaic.ValueIdx

/-- The arrays' shape, and one tile's. -/
abbrev Arr : Shape := ⟨2, ![8192, 4096]⟩
abbrev Tile : Shape := ⟨2, ![128, 4096]⟩

/-- The mask bit of a score: `1` exactly when the score is the word `1`. -/
def bit (s : BitVec 32) : BitVec 1 := IntOp.cmpi .eq s 1#32

/-- `a` where the score is `1`, zero elsewhere. -/
def keep (s : BitVec 32) (a : EReal) : EReal := Scalar.select (bit s) a (Ideal.ofBits .f32 0x00000000#32)

/-- The per-entry loss `max x 0 - x * y + log (1 + exp (-|x|))`. -/
def bce (x y : EReal) : EReal :=
  max x (Ideal.ofBits .f32 0x00000000#32) - x * y + Ideal.log1p (Ideal.exp (-(max x (-x))))

/-- The mask bit as a number: the bit widened to a 32-bit word, read as a signed integer. -/
def one (s : BitVec 32) : EReal := ((((bit s).setWidth 32).toInt : ℝ) : EReal)

/-- The sum of the kept losses over all entries. -/
def total (x y : Arr.Idx → EReal) (s : Arr.Idx → BitVec 32) : EReal := ∑ j, keep (s j) (bce (x j) (y j))

/-- The number of kept entries. -/
def count (s : Arr.Idx → BitVec 32) : EReal := ∑ j, one (s j)

/-- The scalar result. -/
def loss (x y : Arr.Idx → EReal) (s : Arr.Idx → BitVec 32) : EReal :=
  Ideal.div (Ideal.div (total x y s) (count s)) (count s)

/-- Row `r` of tile `t` is row `128 t + r` of the array. -/
abbrev row (t : Fin 64) (r : Fin 128) : Fin 8192 := ⟨128 * t.val + r.val, by omega⟩

/-- REGROUPING: a sum over all entries of the array is the sum over the 64 tiles, the 128 rows of a tile and the
    4096 columns of a row. -/
theorem sum_tiles {M : Type*} [AddCommMonoid M] (f : Arr.Idx → M) :
    ∑ j, f j = ∑ t : Fin 64, ∑ r : Fin 128, ∑ c : Fin 4096, f (ix2 (row t r) c) := by
  rw [sum_idx2]
  have h := Cert.Rosen.sum_tile (a := 64) (b := 128) (m := 8192) (by norm_num)
    (fun R => if h : R < 8192 then ∑ c : Fin 4096, f (ix2 (⟨R, h⟩ : Fin 8192) c) else 0)
  have hL : ∀ (t : Fin 64) (r : Fin 128), (if h : 128 * t.val + r.val < 8192 then ∑ c : Fin 4096, f (ix2 (⟨128 * t.val + r.val, h⟩ : Fin 8192) c) else 0)
      = ∑ c : Fin 4096, f (ix2 (row t r) c) := fun t r => dif_pos (by omega)
  have hR : ∀ R : Fin 8192, (if h : R.val < 8192 then ∑ c : Fin 4096, f (ix2 (⟨R.val, h⟩ : Fin 8192) c) else 0)
      = ∑ c : Fin 4096, f (ix2 R c) := fun R => dif_pos R.isLt
  simp only [hL, hR] at h
  exact h.symm

/-! ## Tile by tile -/

/-- Tile `t` of an array: its rows `128 t` … `128 t + 127`. -/
def blockOf {α : Type} (X : Arr.Idx → α) (t : Fin 64) : Tile.Idx → α :=
  fun y => X (ix2 (row t ⟨(y 0).val, idx2_lt0 y⟩) ⟨(y 1).val, idx2_lt1 y⟩)

theorem blockOf_ix2 {α : Type} (X : Arr.Idx → α) (t : Fin 64) (r : Fin 128) (c : Fin 4096) :
    blockOf X t (ix2 r c) = X (ix2 (row t r) c) := rfl

/-- The sum of the kept losses over one tile, and the number of kept entries of one tile. -/
def tileTotal (b0 b1 : Tile.Idx → EReal) (b2 : Tile.Idx → BitVec 32) : EReal :=
  ∑ r : Fin 128, ∑ c : Fin 4096, keep (b2 (ix2 r c)) (bce (b0 (ix2 r c)) (b1 (ix2 r c)))
def tileCount (b2 : Tile.Idx → BitVec 32) : EReal := ∑ r : Fin 128, ∑ c : Fin 4096, one (b2 (ix2 r c))

/-- The whole sums are the sums of the tiles' sums. -/
theorem total_eq_tiles (x y : Arr.Idx → EReal) (s : Arr.Idx → BitVec 32) :
    total x y s = ∑ t : Fin 64, tileTotal (blockOf x t) (blockOf y t) (blockOf s t) := by
  unfold total
  rw [sum_tiles]
  rfl
theorem count_eq_tiles (s : Arr.Idx → BitVec 32) : count s = ∑ t : Fin 64, tileCount (blockOf s t) := by
  unfold count
  rw [sum_tiles]
  rfl

/-- The zero word is the number zero, so subtracting from it negates. -/
theorem zero_sub_eq_neg (a : EReal) : Ideal.ofBits .f32 0x00000000#32 - a = -a := by
  rw [Ideal.ofBits_zero_f32, zero_sub]

end Cert.MaskedLoss

end
-- ==== Proof.Body.lean ====
import proofs.«102014_j33638183862597_1_alg».proof.Proof.Gen.KernelIdeal.Skeleton
import proofs.«102014_j33638183862597_1_alg».proof.Proof.Spec
import Idealize.ShloMosaic.Lib.Pipeline.Value
import Idealize.ShloMosaic.Lib.ValueIdx
import Idealize.ShloMosaic.PureOps.Ideal.Laws

/-!
# The body's arithmetic, read entry by entry over the extended reals

The body's stored values are pure functions of the three loaded blocks `pred`, `labels` ([128, 4096] extended reals)
and `scores` ([128, 4096] words). Read at an index:

* the two array outputs are the kept entries of `pred` and of `labels`;
* the tile's scalar is a sum over the 4096 columns of each row, laid out as a column, then a sum over the 128 rows: the
  double sum over the tile's entries. For the loss it sums the kept per-entry losses (the body writes `0 - |x|` where the
  specification writes `-|x|`); for the count it sums the mask bit read as a number;
* each accumulator update adds the tile's scalar to what the accumulator held; the value an accumulator is reset to is zero.
-/

noncomputable section

open Idealize.ShloMosaic Idealize.ShloMosaic.ValueIdx

namespace Cert.KernelIdeal.Body

open Cert.KernelIdeal Cert.KernelIdeal.Gen
open Cert.MaskedLoss (bit keep bce one tileTotal tileCount zero_sub_eq_neg)

/-! ## The layout steps of the two-stage sum -/

/-- A sum over the columns, at row `r`. -/
theorem lanes_apply (v : FVec Ideal S128x4096 .f32) (r : Fin 128) :
    multiReduction .add [1] S128 v 0x00000000#32 reduces_S128x4096_S128 (.inl rfl) rfl (ix1 r) = ∑ c : Fin 4096, v (ix2 r c) :=
  (Ideal.multiReduction_add_single v 0x00000000#32 reduces_S128x4096_S128 (.inl rfl) rfl (ix1 r)).trans
    (Finset.sum_congr rfl fun c _ => congrArg v (funext fun a => Fin.ext (by match a with | ⟨0, _⟩ => rfl | ⟨1, _⟩ => rfl)))

/-- The row sums laid out as a column. -/
theorem col_apply (v : FVec Ideal S128 .f32) (r : Fin 128) (q : Fin 1) :
    shapeCast S128x1 v shapeCasts_S128_S128x1 (ix2 r q) = v (ix1 r) :=
  shapeCast_apply v shapeCasts_S128_S128x1 (ix2 r q) (ix1 r) (by
    rewrite [Shape.rowMajor_val_one, Shape.rowMajor_val_two]
    show r.val = r.val * 1 + q.val
    have := q.isLt; omega)

/-- A sum over the rows of a column. -/
theorem rows_apply (v : FVec Ideal S128x1 .f32) (q : Fin 1) :
    multiReduction .add [0] S1 v 0x00000000#32 reduces_S128x1_S1 (.inl rfl) rfl (ix1 q) = ∑ r : Fin 128, v (ix2 r q) :=
  (Ideal.multiReduction_add_single v 0x00000000#32 reduces_S128x1_S1 (.inl rfl) rfl (ix1 q)).trans
    (Finset.sum_congr rfl fun r _ => congrArg v (funext fun a => Fin.ext (by match a with | ⟨0, _⟩ => rfl | ⟨1, _⟩ => rfl)))

/-- The one-element vector laid out as a one-by-one matrix. -/
theorem unit_apply (v : FVec Ideal S1 .f32) (p q : Fin 1) :
    shapeCast S1x1 v shapeCasts_S1_S1x1 (ix2 p q) = v (ix1 q) :=
  shapeCast_apply v shapeCasts_S1_S1x1 (ix2 p q) (ix1 q) (by
    rewrite [Shape.rowMajor_val_one, Shape.rowMajor_val_two]
    show q.val = p.val * 1 + q.val
    have := p.isLt; omega)

/-- Columns first, then rows: the double sum over the tile. -/
theorem tile_sum (v : FVec Ideal S128x4096 .f32) (p q : Fin 1) :
    shapeCast S1x1 (multiReduction .add [0] S1 (shapeCast S128x1
        (multiReduction .add [1] S128 v 0x00000000#32 reduces_S128x4096_S128 (.inl rfl) rfl) shapeCasts_S128_S128x1)
        0x00000000#32 reduces_S128x1_S1 (.inl rfl) rfl) shapeCasts_S1_S1x1 (ix2 p q)
      = ∑ r : Fin 128, ∑ c : Fin 4096, v (ix2 r c) := by
  rw [unit_apply, rows_apply]
  refine Finset.sum_congr rfl fun r _ => ?_
  rw [col_apply, lanes_apply]

/-! ## The stored values -/

variable (x0 x1 : FVec Ideal S128x4096 .f32) (x2 : IVec S128x4096 32)

/-- The first array output: the kept entries of `pred`. -/
theorem kept_pred_apply (y : S128x4096.Idx) : k0_pay6 (F := Ideal) x0 x2 y = keep (x2 y) (x0 y) := rfl

/-- The second array output: the kept entries of `labels`. -/
theorem kept_labels_apply (y : S128x4096.Idx) : k0_pay7 (F := Ideal) x1 x2 y = keep (x2 y) (x1 y) := rfl

/-- The tile's sum of kept losses. -/
theorem tile_total_apply (p q : Fin 1) : k0_pay8 (F := Ideal) x0 x1 x2 (ix2 p q) = tileTotal x0 x1 x2 := by
  unfold k0_pay8
  refine (tile_sum _ p q).trans ?_
  refine Finset.sum_congr rfl fun r _ => Finset.sum_congr rfl fun c _ => ?_
  show keep (x2 (ix2 r c)) (max (x0 (ix2 r c)) (Ideal.ofBits .f32 0x00000000#32) - x0 (ix2 r c) * x1 (ix2 r c)
    + Ideal.log1p (Ideal.exp (Ideal.ofBits .f32 0x00000000#32 - max (x0 (ix2 r c)) (-(x0 (ix2 r c)))))) = _
  rw [zero_sub_eq_neg]
  rfl

/-- An update of the count accumulator: what it held plus the tile's number of kept entries. -/
theorem count_step_apply (xo : FVec Ideal S1x1 .f32) (p q : Fin 1) :
    k0_pay2 (F := Ideal) (k0_pay9 x2) xo (ix2 p q) = xo (ix2 p q) + tileCount x2 := by
  unfold k0_pay2 k0_pay9
  refine congrArg₂ (· + ·) (congrFun (shapeCast_self xo shapeCasts_S1x1_S1x1) (ix2 p q)) ((tile_sum _ p q).trans ?_)
  rfl

/-- An update of the loss accumulator: what it held plus the tile's scalar. -/
theorem total_step_apply (a xo : FVec Ideal S1x1 .f32) (y : S1x1.Idx) :
    k0_pay1 (F := Ideal) a xo y = xo y + a y := by
  unfold k0_pay1
  exact congrArg₂ (· + ·) (congrFun (shapeCast_self xo shapeCasts_S1x1_S1x1) y) rfl

/-- The accumulators are reset to zero. -/
theorem reset_total_apply (y : S1x1.Idx) : k0_pay3 (F := Ideal) y = 0 := Ideal.ofBits_zero_f32
theorem reset_count_apply (y : S1x1.Idx) : k0_pay4 (F := Ideal) y = 0 := Ideal.ofBits_zero_f32

end Cert.KernelIdeal.Body

end
-- ==== Proof.Accum.lean ====
import proofs.«102014_j33638183862597_1_alg».proof.Proof.Pieces
import proofs.«102014_j33638183862597_1_alg».proof.Proof.Body

/-!
# The outputs' staging buffers, point by point

After the body at grid point `n` the two array outputs' buffers hold the kept entries of the point's `pred` and `labels`
blocks, and the two accumulators hold the running sums over the points `0 … n` of the tiles' sums of kept losses and
of the tiles' numbers of kept entries — the first point starting from the zero it has just stored, every later point from
what the point before left. By induction on the point.
-/

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Body
open Cert.MaskedLoss (tileTotal tileCount)

variable (m : (ℓ : Loc nD τ sig) → Buf (Elt Ideal) ℓ)

/-- The running sum, after point `n`, of the tiles' sums of kept losses. -/
def runTotal (c : Dev nD) : (n : ℕ) → n < cfg0.N → EReal
  | 0, h => 0 + tileTotal (iblk m c 0 ⟨0, h⟩) (iblk m c 1 ⟨0, h⟩) (iblk m c 2 ⟨0, h⟩)
  | n + 1, h => runTotal c n (Nat.lt_of_succ_lt h) + tileTotal (iblk m c 0 ⟨n + 1, h⟩) (iblk m c 1 ⟨n + 1, h⟩) (iblk m c 2 ⟨n + 1, h⟩)

/-- The running sum, after point `n`, of the tiles' numbers of kept entries. -/
def runCount (c : Dev nD) : (n : ℕ) → n < cfg0.N → EReal
  | 0, h => 0 + tileCount (iblk m c 2 ⟨0, h⟩)
  | n + 1, h => runCount c n (Nat.lt_of_succ_lt h) + tileCount (iblk m c 2 ⟨n + 1, h⟩)

/-- What the four outputs' buffers hold after the body at point `n`. -/
theorem outsAt_eq (c : Dev nD) : ∀ (n : ℕ) (h : n < cfg0.N), outsAt0 m c n h =
    (k0_pay6 (iblk m c 0 ⟨n, h⟩) (iblk m c 2 ⟨n, h⟩), k0_pay7 (iblk m c 1 ⟨n, h⟩) (iblk m c 2 ⟨n, h⟩),
      (fun _ => runTotal m c n h), (fun _ => runCount m c n h))
  | 0, h => by
    have hc : cond0_0 (grid0.coords (⟨0, h⟩ : Fin cfg0.N)) := (hcond0_0 ⟨0, h⟩).mpr rfl
    rw [outsAt0_A m c ⟨0, h⟩ rfl]
    refine congrArg₂ Prod.mk ?_ (congrArg₂ Prod.mk ?_ (congrArg₂ Prod.mk ?_ ?_))
    · exact first_pred (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (iblk m c 0 ⟨0, h⟩) (iblk m c 1 ⟨0, h⟩) (iblk m c 2 ⟨0, h⟩) hc
    · exact first_labels (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (iblk m c 0 ⟨0, h⟩) (iblk m c 1 ⟨0, h⟩) (iblk m c 2 ⟨0, h⟩) hc
    · refine (first_total (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (iblk m c 0 ⟨0, h⟩) (iblk m c 1 ⟨0, h⟩) (iblk m c 2 ⟨0, h⟩) hc).trans (funext fun y => ?_)
      obtain ⟨p, q, rfl⟩ : ∃ (p q : Fin 1), y = ix2 p q := ⟨y 0, y 1, eq_ix2 y⟩
      refine (total_step_apply _ _ (ix2 p q)).trans ?_
      show _ = 0 + tileTotal _ _ _
      exact congrArg₂ (· + ·) (reset_total_apply _) (tile_total_apply _ _ _ p q)
    · refine (first_count (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (iblk m c 0 ⟨0, h⟩) (iblk m c 1 ⟨0, h⟩) (iblk m c 2 ⟨0, h⟩) hc).trans (funext fun y => ?_)
      obtain ⟨p, q, rfl⟩ : ∃ (p q : Fin 1), y = ix2 p q := ⟨y 0, y 1, eq_ix2 y⟩
      refine (count_step_apply _ _ p q).trans ?_
      show _ = 0 + tileCount _
      exact congrArg (· + _) (reset_count_apply _)
  | n + 1, h => by
    have hN : cfg0.N = 64 := N_0
    have hB : ¬(⟨n + 1, h⟩ : Fin cfg0.N).val % 64 = 0 := by dsimp only; omega
    have hc : ¬cond0_0 (grid0.coords (⟨n + 1, h⟩ : Fin cfg0.N)) := fun hh => hB ((hcond0_0 ⟨n + 1, h⟩).mp hh)
    have ih := outsAt_eq c n (Nat.lt_of_succ_lt h)
    rw [outsAt0_B m c ⟨n + 1, h⟩ hB]
    refine congrArg₂ Prod.mk ?_ (congrArg₂ Prod.mk ?_ (congrArg₂ Prod.mk ?_ ?_))
    · exact later_pred (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (iblk m c 0 ⟨n + 1, h⟩) (iblk m c 1 ⟨n + 1, h⟩) (iblk m c 2 ⟨n + 1, h⟩) (outsAt0 m c (n + 1 - 1) (Nat.lt_of_le_of_lt (Nat.sub_le _ _) h)).2.2.1 (outsAt0 m c (n + 1 - 1) (Nat.lt_of_le_of_lt (Nat.sub_le _ _) h)).2.2.2 hc
    · exact later_labels (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (iblk m c 0 ⟨n + 1, h⟩) (iblk m c 1 ⟨n + 1, h⟩) (iblk m c 2 ⟨n + 1, h⟩) (outsAt0 m c (n + 1 - 1) (Nat.lt_of_le_of_lt (Nat.sub_le _ _) h)).2.2.1 (outsAt0 m c (n + 1 - 1) (Nat.lt_of_le_of_lt (Nat.sub_le _ _) h)).2.2.2 hc
    · refine (later_total (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (iblk m c 0 ⟨n + 1, h⟩) (iblk m c 1 ⟨n + 1, h⟩) (iblk m c 2 ⟨n + 1, h⟩) (outsAt0 m c (n + 1 - 1) (Nat.lt_of_le_of_lt (Nat.sub_le _ _) h)).2.2.1 (outsAt0 m c (n + 1 - 1) (Nat.lt_of_le_of_lt (Nat.sub_le _ _) h)).2.2.2 hc).trans (funext fun y => ?_)
      obtain ⟨p, q, rfl⟩ : ∃ (p q : Fin 1), y = ix2 p q := ⟨y 0, y 1, eq_ix2 y⟩
      refine (total_step_apply _ _ (ix2 p q)).trans ?_
      show (outsAt0 m c n (Nat.lt_of_succ_lt h)).2.2.1 (ix2 p q) + _ = runTotal m c n (Nat.lt_of_succ_lt h) + tileTotal _ _ _
      rw [ih]
      exact congrArg (_ + ·) (tile_total_apply _ _ _ p q)
    · refine (later_count (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (iblk m c 0 ⟨n + 1, h⟩) (iblk m c 1 ⟨n + 1, h⟩) (iblk m c 2 ⟨n + 1, h⟩) (outsAt0 m c (n + 1 - 1) (Nat.lt_of_le_of_lt (Nat.sub_le _ _) h)).2.2.1 (outsAt0 m c (n + 1 - 1) (Nat.lt_of_le_of_lt (Nat.sub_le _ _) h)).2.2.2 hc).trans (funext fun y => ?_)
      obtain ⟨p, q, rfl⟩ : ∃ (p q : Fin 1), y = ix2 p q := ⟨y 0, y 1, eq_ix2 y⟩
      refine (count_step_apply _ _ p q).trans ?_
      show (outsAt0 m c n (Nat.lt_of_succ_lt h)).2.2.2 (ix2 p q) + _ = runCount m c n (Nat.lt_of_succ_lt h) + tileCount _
      rw [ih]

end Cert.KernelIdeal.Accum

end
-- ==== Proof.Blocks.lean ====
import proofs.«102014_j33638183862597_1_alg».proof.Proof.Accum

/-!
# From the points' blocks to the two array results

Every moving window's block at point `t` is tile `t` of its array (rows `128 t … 128 t + 127`, all 4096 columns). The
two array outputs are written back at every point: point `t` writes tile `t` of the array of kept entries, and the 64
tiles cover the array, so each array ends holding the kept entries of `pred`, of `labels`.
-/

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Accum
open Cert.MaskedLoss (keep row blockOf)

variable (m : (ℓ : Loc nD τ sig) → Buf (Elt Ideal) ℓ)

/-- The printed index maps, decided over the grid: the five moving windows are at block (t, 0) at point `t`, the two
    accumulators' windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The tile a point works on. -/
def tileOf (t : Fin cfg0.N) : Fin 64 := ⟨t.val, lt_of_lt_of_eq t.isLt N_0⟩

/-! ## The input blocks are tiles of the argument arrays -/

/-- The `pred` block at point `t` is tile `t` of `pred`. -/
theorem pred_block (c : Dev nD) (t : Fin cfg0.N) : iblk m c 0 t = blockOf (m ((c : Thread nD τ).loc main_arg0)) (tileOf t) := by
  obtain ⟨e00, e01, e10, e11, e20, e21, e30, e31, e40, e41, e50, e51, e60, e61⟩ := idx_facts t
  funext j
  show V m c main_arg0 (((cfg0.win 0).blk t).view.emb j) = _
  refine congrArg (m ((c : Thread nD τ).loc main_arg0)) (funext fun a => Fin.ext ?_)
  match a with
  | ⟨0, _⟩ => show win0_0.index t (0 : Fin 2) * 128 + 1 * (j 0).val = 128 * t.val + (j 0).val; omega
  | ⟨1, _⟩ => show win0_0.index t (1 : Fin 2) * 4096 + 1 * (j 1).val = (j 1).val; omega

/-- The `labels` block at point `t` is tile `t` of `labels`. -/
theorem labels_block (c : Dev nD) (t : Fin cfg0.N) : iblk m c 1 t = blockOf (m ((c : Thread nD τ).loc main_arg1)) (tileOf t) := by
  obtain ⟨e00, e01, e10, e11, e20, e21, e30, e31, e40, e41, e50, e51, e60, e61⟩ := idx_facts t
  funext j
  show V m c main_arg1 (((cfg0.win 1).blk t).view.emb j) = _
  refine congrArg (m ((c : Thread nD τ).loc main_arg1)) (funext fun a => Fin.ext ?_)
  match a with
  | ⟨0, _⟩ => show win0_1.index t (0 : Fin 2) * 128 + 1 * (j 0).val = 128 * t.val + (j 0).val; omega
  | ⟨1, _⟩ => show win0_1.index t (1 : Fin 2) * 4096 + 1 * (j 1).val = (j 1).val; omega

/-- The `scores` block at point `t` is tile `t` of `scores`. -/
theorem scores_block (c : Dev nD) (t : Fin cfg0.N) : iblk m c 2 t = blockOf (m ((c : Thread nD τ).loc main_arg2)) (tileOf t) := by
  obtain ⟨e00, e01, e10, e11, e20, e21, e30, e31, e40, e41, e50, e51, e60, e61⟩ := idx_facts t
  funext j
  show V m c main_arg2 (((cfg0.win 2).blk t).view.emb j) = _
  refine congrArg (m ((c : Thread nD τ).loc main_arg2)) (funext fun a => Fin.ext ?_)
  match a with
  | ⟨0, _⟩ => show win0_2.index t (0 : Fin 2) * 128 + 1 * (j 0).val = 128 * t.val + (j 0).val; omega
  | ⟨1, _⟩ => show win0_2.index t (1 : Fin 2) * 4096 + 1 * (j 1).val = (j 1).val; omega

/-! ## The two array results -/

/-- The kept entries of `pred`, and of `labels`. -/
def keptPred (c : Dev nD) : S8192x4096.Idx → EReal :=
  fun i => keep (m ((c : Thread nD τ).loc main_arg2) i) (m ((c : Thread nD τ).loc main_arg0) i)
def keptLabels (c : Dev nD) : S8192x4096.Idx → EReal :=
  fun i => keep (m ((c : Thread nD τ).loc main_arg2) i) (m ((c : Thread nD τ).loc main_arg1) i)

/-- What point `t` writes back to the first array result is tile `t` of the kept entries of `pred`. -/
theorem flushed3_eq (c : Dev nD) (t : Fin cfg0.N) :
    (dats m 0 c).flushed 3 t = ((cfg0.win 3).blk t).view.read (Elt Ideal) (keptPred m c) := by
  obtain ⟨e00, e01, e10, e11, e20, e21, e30, e31, e40, e41, e50, e51, e60, e61⟩ := idx_facts t
  show (cfg0.win 3).cut (grid0.coords t) ((dats m 0 c).after 3 t) = _
  rw [after0_3, outsAt_eq]
  funext j
  show keep (iblk m c 2 t j) (iblk m c 0 t j) = keptPred m c (((cfg0.win 3).blk t).view.emb j)
  rw [pred_block, scores_block]
  have he : ((cfg0.win 3).blk t).view.emb j = ix2 (row (tileOf t) ⟨(j 0).val, idx2_lt0 j⟩) ⟨(j 1).val, idx2_lt1 j⟩ := by
    funext a; apply Fin.ext
    match a with
    | ⟨0, _⟩ => show win0_3.index t (0 : Fin 2) * 128 + 1 * (j 0).val = 128 * t.val + (j 0).val; omega
    | ⟨1, _⟩ => show win0_3.index t (1 : Fin 2) * 4096 + 1 * (j 1).val = (j 1).val; omega
  rw [he]
  rfl

/-- An entry of the array is in point `t`'s block iff its row is one of the tile's 128 rows. -/
theorem mem_blk3 (t : Fin cfg0.N) (i : S8192x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0_0).slice (win0_3.rect t)).set ↔ _
  rw [View.set_slice_whole, Rect.mem_set_unit]
  exact Iff.rfl

/-- Every entry is in the block of the point whose tile holds its row. -/
theorem cover3 (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  have ht : (i 0).val / 128 < cfg0.N := by omega
  obtain ⟨e00, e01, e10, e11, e20, e21, e30, e31, e40, e41, e50, e51, e60, e61⟩ := idx_facts ⟨(i 0).val / 128, ht⟩
  refine ⟨⟨(i 0).val / 128, ht⟩, flush0_3 _, ?_⟩
  rw [mem_blk3]
  intro a
  match a with
  | ⟨0, _⟩ =>
    show win0_3.index ⟨(i 0).val / 128, ht⟩ (0 : Fin 2) * 128 ≤ (i 0).val ∧ (i 0).val < win0_3.index ⟨(i 0).val / 128, ht⟩ (0 : Fin 2) * 128 + 128
    dsimp only at e30; omega
  | ⟨1, _⟩ =>
    show win0_3.index ⟨(i 0).val / 128, ht⟩ (1 : Fin 2) * 4096 ≤ (i 1).val ∧ (i 1).val < win0_3.index ⟨(i 0).val / 128, ht⟩ (1 : Fin 2) * 4096 + 4096
    omega

/-- So the array ends holding the kept entries. -/
theorem final3 (c : Dev nD) : (dats m 0 c).arrAt 3 cfg0.N = keptPred m c :=
  (dats m 0 c).arrAt_eq_of_cover 3 (keptPred m c) (fun t _ => flushed3_eq m c t) cover3

/-- What point `t` writes back to the second array result is tile `t` of the kept entries of `labels`. -/
theorem flushed4_eq (c : Dev nD) (t : Fin cfg0.N) :
    (dats m 0 c).flushed 4 t = ((cfg0.win 4).blk t).view.read (Elt Ideal) (keptLabels m c) := by
  obtain ⟨e00, e01, e10, e11, e20, e21, e30, e31, e40, e41, e50, e51, e60, e61⟩ := idx_facts t
  show (cfg0.win 4).cut (grid0.coords t) ((dats m 0 c).after 4 t) = _
  rw [after0_4, outsAt_eq]
  funext j
  show keep (iblk m c 2 t j) (iblk m c 1 t j) = keptLabels m c (((cfg0.win 4).blk t).view.emb j)
  rw [labels_block, scores_block]
  have he : ((cfg0.win 4).blk t).view.emb j = ix2 (row (tileOf t) ⟨(j 0).val, idx2_lt0 j⟩) ⟨(j 1).val, idx2_lt1 j⟩ := by
    funext a; apply Fin.ext
    match a with
    | ⟨0, _⟩ => show win0_4.index t (0 : Fin 2) * 128 + 1 * (j 0).val = 128 * t.val + (j 0).val; omega
    | ⟨1, _⟩ => show win0_4.index t (1 : Fin 2) * 4096 + 1 * (j 1).val = (j 1).val; omega
  rw [he]
  rfl

/-- An entry of the array is in point `t`'s block iff its row is one of the tile's 128 rows. -/
theorem mem_blk4 (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_1).slice (win0_4.rect t)).set ↔ _
  rw [View.set_slice_whole, Rect.mem_set_unit]
  exact Iff.rfl

/-- Every entry is in the block of the point whose tile holds its row. -/
theorem cover4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 64 := N_0
  have ht : (i 0).val / 128 < cfg0.N := by omega
  obtain ⟨e00, e01, e10, e11, e20, e21, e30, e31, e40, e41, e50, e51, e60, e61⟩ := idx_facts ⟨(i 0).val / 128, ht⟩
  refine ⟨⟨(i 0).val / 128, ht⟩, flush0_4 _, ?_⟩
  rw [mem_blk4]
  intro a
  match a with
  | ⟨0, _⟩ =>
    show win0_4.index ⟨(i 0).val / 128, ht⟩ (0 : Fin 2) * 128 ≤ (i 0).val ∧ (i 0).val < win0_4.index ⟨(i 0).val / 128, ht⟩ (0 : Fin 2) * 128 + 128
    dsimp only at e40; omega
  | ⟨1, _⟩ =>
    show win0_4.index ⟨(i 0).val / 128, ht⟩ (1 : Fin 2) * 4096 ≤ (i 1).val ∧ (i 1).val < win0_4.index ⟨(i 0).val / 128, ht⟩ (1 : Fin 2) * 4096 + 4096
    omega

/-- So the array ends holding the kept entries. -/
theorem final4 (c : Dev nD) : (dats m 0 c).arrAt 4 cfg0.N = keptLabels m c :=
  (dats m 0 c).arrAt_eq_of_cover 4 (keptLabels m c) (fun t _ => flushed4_eq m c t) cover4

end Cert.KernelIdeal.Blocks

end
-- ==== Proof.Last.lean ====
import proofs.«102014_j33638183862597_1_alg».proof.Proof.Blocks

/-!
# The running sums after the last point

The accumulators hold, after the last point, the running sums after point 63. A running sum after point 63 is the sum over
all 64 tiles, that is (regrouping) the sum over all entries of the arrays: the sum of the kept losses, and the number of kept
entries.
-/

noncomputable section

open Idealize.ShloMosaic Idealize.ShloMosaic.TcCoe Idealize.SL.Sem Idealize.ShloMosaic.ValueIdx
open Idealize.ShloMosaic.Pipeline (Dat)

namespace Cert.KernelIdeal.Scalars

open Cert.KernelIdeal Cert.KernelIdeal.Gen Cert.KernelIdeal.Accum Cert.KernelIdeal.Blocks
open Cert.MaskedLoss (blockOf tileTotal tileCount total count total_eq_tiles count_eq_tiles)

variable (m : (ℓ : Loc nD τ sig) → Buf (Elt Ideal) ℓ)

/-- The last point is a point. -/
theorem lastPt_lt : 63 < cfg0.N := by rw [show cfg0.N = 64 from N_0]; decide

/-- A running sum depends on the point only. -/
theorem runTotal_congr (c : Dev nD) (n n' : ℕ) (h : n < cfg0.N) (h' : n' < cfg0.N) (e : n = n') :
    runTotal m c n h = runTotal m c n' h' := by subst e; rfl
theorem runCount_congr (c : Dev nD) (n n' : ℕ) (h : n < cfg0.N) (h' : n' < cfg0.N) (e : n = n') :
    runCount m c n h = runCount m c n' h' := by subst e; rfl

/-- The running sums after the last point. -/
def finalTotal (c : Dev nD) : EReal := runTotal m c 63 lastPt_lt
def finalCount (c : Dev nD) : EReal := runCount m c 63 lastPt_lt

/-! ## A running sum after the last point is the sum over all entries -/

/-- A running sum is the sum of the tiles' terms up to the point (the zero it starts from adds nothing). -/
theorem runTotal_eq_sum (c : Dev nD) : ∀ (n : ℕ) (h : n < cfg0.N), runTotal m c n h
    = ∑ k ∈ Finset.range (n + 1), if hk : k < cfg0.N then tileTotal (iblk m c 0 ⟨k, hk⟩) (iblk m c 1 ⟨k, hk⟩) (iblk m c 2 ⟨k, hk⟩) else 0
  | 0, h => by
    rw [Finset.sum_range_one, dif_pos h]
    exact zero_add _
  | n + 1, h => by
    rw [Finset.sum_range_succ, dif_pos h, ← runTotal_eq_sum c n (Nat.lt_of_succ_lt h)]
    rfl

theorem runCount_eq_sum (c : Dev nD) : ∀ (n : ℕ) (h : n < cfg0.N), runCount m c n h
    = ∑ k ∈ Finset.range (n + 1), if hk : k < cfg0.N then tileCount (iblk m c 2 ⟨k, hk⟩) else 0
  | 0, h => by
    rw [Finset.sum_range_one, dif_pos h]
    exact zero_add _
  | n + 1, h => by
    rw [Finset.sum_range_succ, dif_pos h, ← runCount_eq_sum c n (Nat.lt_of_succ_lt h)]
    rfl

/-- The loss accumulator ends at the sum of the kept losses over all entries. -/
theorem finalTotal_eq (c : Dev nD) : finalTotal m c
    = total (m ((c : Thread nD τ).loc main_arg0)) (m ((c : Thread nD τ).loc main_arg1)) (m ((c : Thread nD τ).loc main_arg2)) := by
  have hN : cfg0.N = 64 := N_0
  unfold finalTotal
  rw [runTotal_eq_sum, total_eq_tiles, ← Fin.sum_univ_eq_sum_range
    (fun k => if hk : k < cfg0.N then tileTotal (iblk m c 0 ⟨k, hk⟩) (iblk m c 1 ⟨k, hk⟩) (iblk m c 2 ⟨k, hk⟩) else 0) 64]
  refine Finset.sum_congr rfl fun k _ => ?_
  have hk : k.val < cfg0.N := by have := k.isLt; omega
  rw [dif_pos hk, pred_block, labels_block, scores_block]
  rfl

/-- The count accumulator ends at the number of kept entries. -/
theorem finalCount_eq (c : Dev nD) : finalCount m c = count (m ((c : Thread nD τ).loc main_arg2)) := by
  have hN : cfg0.N = 64 := N_0
  unfold finalCount
  rw [runCount_eq_sum, count_eq_tiles, ← Fin.sum_univ_eq_sum_range
    (fun k => if hk : k < cfg0.N then tileCount (iblk m c 2 ⟨k, hk⟩) else 0) 64]
  refine Finset.sum_congr rfl fun k _ => ?_
  have hk : k.val < cfg0.N := by have := k.isLt; omega
  rw [dif_pos hk, scores_block]
  rfl

end Cert.KernelIdeal.Scalars

end
-- ==== Proof.TotalArr.lean ====
import proofs.«102014_j33638183862597_1_alg».proof.Proof.Last

/-!
# The loss accumulator's array

The accumulator's window is the one-by-one array itself at every point, written back after the last point only: the array
ends holding the running sum, after point 63, of the tiles' sums of kept losses.
-/

noncomputable section

open Idealize.ShloMosaic Idealize.ShloMosaic.TcCoe Idealize.SL.Sem Idealize.ShloMosaic.ValueIdx
open Idealize.ShloMosaic.Pipeline (Dat)

namespace Cert.KernelIdeal.Scalars

open Cert.KernelIdeal Cert.KernelIdeal.Gen Cert.KernelIdeal.Accum Cert.KernelIdeal.Blocks

variable (m : (ℓ : Loc nD τ sig) → Buf (Elt Ideal) ℓ)

/-- The one write-back of the loss accumulator, after the last point, writes the running sum after point 63: the point's
    block, at zero offsets and of the array's own size, is the whole one-by-one array. -/
theorem flushed5_eq (c : Dev nD) (t : Fin cfg0.N) (hf : (cfg0.win 5).flush t = true) :
    (dats m 0 c).flushed 5 t = ((cfg0.win 5).blk t).view.read (Elt Ideal) (fun _ => finalTotal m c) := by
  have hN : cfg0.N = 64 := N_0
  have h63 : t.val = 63 := by have := (flush0_5 t).mp hf; have := t.isLt; omega
  obtain ⟨e00, e01, e10, e11, e20, e21, e30, e31, e40, e41, e50, e51, e60, e61⟩ := idx_facts t
  have hz' : (fun a => win0_5.index t a * main_v0_2.ty.shape.size a) = fun _ => 0 := funext fun a => by
    match a with
    | ⟨0, _⟩ => show win0_5.index t (0 : Fin 2) * 1 = 0; omega
    | ⟨1, _⟩ => show win0_5.index t (1 : Fin 2) * 1 = 0; omega
  show (cfg0.win 5).cut (grid0.coords t) ((dats m 0 c).after 5 t) = _
  rw [after0_5, outsAt_eq]
  refine Eq.trans ?_ (Memref.read_access_unit_zero (Elt Ideal) main_v0_2 hz' (fun a => by rw [congrFun hz' a]; simp)
    (fun _ => finalTotal m c)).symm
  funext j
  exact runTotal_congr m c t.val 63 t.isLt lastPt_lt h63

/-- An index of the one-by-one array is in a point's block iff each coordinate is in the block's range. -/
theorem mem_blk5 (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v0_2).slice (win0_5.rect t)).set ↔ _
  rw [View.set_slice_whole, Rect.mem_set_unit]
  exact Iff.rfl

/-- The last point's block is the whole one-by-one array. -/
theorem cover5 (i : S1x1.Idx) : ∃ t : Fin cfg0.N, (cfg0.win 5).flush t = true ∧ i ∈ ((cfg0.win 5).blk t).view.set := by
  have hi0 : (i 0).val < 1 := (i 0).isLt
  have hi1 : (i 1).val < 1 := (i 1).isLt
  obtain ⟨t, ht⟩ : ∃ t : Fin cfg0.N, t.val = 63 := ⟨⟨63, lastPt_lt⟩, rfl⟩
  obtain ⟨e00, e01, e10, e11, e20, e21, e30, e31, e40, e41, e50, e51, e60, e61⟩ := idx_facts t
  refine ⟨t, (flush0_5 t).mpr (by omega), ?_⟩
  rw [mem_blk5]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 1 ≤ (i 1).val ∧ (i 1).val < win0_5.index t (1 : Fin 2) * 1 + 1; omega

/-- So the one-by-one array ends holding the running sum after the last point. -/
theorem final5 (c : Dev nD) : (dats m 0 c).arrAt 5 cfg0.N = fun _ => finalTotal m c :=
  (dats m 0 c).arrAt_eq_of_cover 5 (fun _ => finalTotal m c) (flushed5_eq m c) cover5

end Cert.KernelIdeal.Scalars

end
-- ==== Proof.CountArr.lean ====
import proofs.«102014_j33638183862597_1_alg».proof.Proof.Last

/-!
# The count accumulator's array

The accumulator's window is the one-by-one array itself at every point, written back after the last point only: the array
ends holding the running sum, after point 63, of the tiles' numbers of kept entries.
-/

noncomputable section

open Idealize.ShloMosaic Idealize.ShloMosaic.TcCoe Idealize.SL.Sem Idealize.ShloMosaic.ValueIdx
open Idealize.ShloMosaic.Pipeline (Dat)

namespace Cert.KernelIdeal.Scalars

open Cert.KernelIdeal Cert.KernelIdeal.Gen Cert.KernelIdeal.Accum Cert.KernelIdeal.Blocks

variable (m : (ℓ : Loc nD τ sig) → Buf (Elt Ideal) ℓ)

/-- The one write-back of the count accumulator, after the last point, writes the running sum after point 63: the point's
    block, at zero offsets and of the array's own size, is the whole one-by-one array. -/
theorem flushed6_eq (c : Dev nD) (t : Fin cfg0.N) (hf : (cfg0.win 6).flush t = true) :
    (dats m 0 c).flushed 6 t = ((cfg0.win 6).blk t).view.read (Elt Ideal) (fun _ => finalCount m c) := by
  have hN : cfg0.N = 64 := N_0
  have h63 : t.val = 63 := by have := (flush0_6 t).mp hf; have := t.isLt; omega
  obtain ⟨e00, e01, e10, e11, e20, e21, e30, e31, e40, e41, e50, e51, e60, e61⟩ := idx_facts t
  have hz' : (fun a => win0_6.index t a * main_v0_3.ty.shape.size a) = fun _ => 0 := funext fun a => by
    match a with
    | ⟨0, _⟩ => show win0_6.index t (0 : Fin 2) * 1 = 0; omega
    | ⟨1, _⟩ => show win0_6.index t (1 : Fin 2) * 1 = 0; omega
  show (cfg0.win 6).cut (grid0.coords t) ((dats m 0 c).after 6 t) = _
  rw [after0_6, outsAt_eq]
  refine Eq.trans ?_ (Memref.read_access_unit_zero (Elt Ideal) main_v0_3 hz' (fun a => by rw [congrFun hz' a]; simp)
    (fun _ => finalCount m c)).symm
  funext j
  exact runCount_congr m c t.val 63 t.isLt lastPt_lt h63

/-- An index of the one-by-one array is in a point's block iff each coordinate is in the block's range. -/
theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v0_3).slice (win0_6.rect t)).set ↔ _
  rw [View.set_slice_whole, Rect.mem_set_unit]
  exact Iff.rfl

/-- The last point's block is the whole one-by-one array. -/
theorem cover6 (i : S1x1.Idx) : ∃ t : Fin cfg0.N, (cfg0.win 6).flush t = true ∧ i ∈ ((cfg0.win 6).blk t).view.set := by
  have hi0 : (i 0).val < 1 := (i 0).isLt
  have hi1 : (i 1).val < 1 := (i 1).isLt
  obtain ⟨t, ht⟩ : ∃ t : Fin cfg0.N, t.val = 63 := ⟨⟨63, lastPt_lt⟩, rfl⟩
  obtain ⟨e00, e01, e10, e11, e20, e21, e30, e31, e40, e41, e50, e51, e60, e61⟩ := idx_facts t
  refine ⟨t, (flush0_6 t).mpr (by omega), ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 1 ≤ (i 1).val ∧ (i 1).val < win0_6.index t (1 : Fin 2) * 1 + 1; omega

/-- So the one-by-one array ends holding the running sum after the last point. -/
theorem final6 (c : Dev nD) : (dats m 0 c).arrAt 6 cfg0.N = fun _ => finalCount m c :=
  (dats m 0 c).arrAt_eq_of_cover 6 (fun _ => finalCount m c) (flushed6_eq m c) cover6

end Cert.KernelIdeal.Scalars

end
-- ==== Proof.Flat.lean ====
import proofs.«102014_j33638183862597_1_alg».proof.Proof.Spec
import Idealize.ShloMosaic.Lib.Pipeline.Value

/-!
# The two array results, flattened

The array results are returned as vectors of 8192 · 4096 entries in row-major order: position `i` holds the entry of
row `i / 4096` and column `i % 4096`.
-/

noncomputable section

namespace Cert.MaskedLoss

open Idealize.ShloMosaic Idealize.ShloMosaic.ValueIdx

/-- The flattened shape. -/
abbrev Flat : Shape := ⟨1, ![33554432]⟩

/-- The entry of the array at a row-major position. -/
def unflat (i : Flat.Idx) : Arr.Idx :=
  ix2 ⟨(i 0).val / 4096, by have h0 : (i 0).val < 33554432 := (i 0).isLt; omega⟩
    ⟨(i 0).val % 4096, Nat.mod_lt _ (by norm_num)⟩

/-- The kept entries of an array, flattened. -/
def flatKept (x : Arr.Idx → EReal) (s : Arr.Idx → BitVec 32) : Flat.Idx → EReal :=
  fun i => keep (s (unflat i)) (x (unflat i))

/-- A reshape to the flattened shape reads position `i` at the entry of that row-major position. -/
theorem reshape_apply {α : Type} (v : Arr.Idx → α) (h : Arr.ShapeCasts Flat) (i : Flat.Idx) :
    shapeCast Flat v h i = v (unflat i) :=
  shapeCast_apply v h i (unflat i) (by
    rewrite [Shape.rowMajor_val_two, Shape.rowMajor_val_one]
    have h0 : (i 0).val < 33554432 := (i 0).isLt
    show (i 0).val / 4096 * 4096 + (i 0).val % 4096 = (i 0).val
    omega)

end Cert.MaskedLoss

end
-- ==== Proof.KernelRun.lean ====
import proofs.«102014_j33638183862597_1_alg».proof.Proof.TotalArr
import proofs.«102014_j33638183862597_1_alg».proof.Proof.CountArr
import proofs.«102014_j33638183862597_1_alg».proof.Proof.Flat
import Idealize.ShloMosaic.Lib.StableHlo.Run

/-!
# The kernel's run, read at its three results

After the region the host divides the loss accumulator's one entry by the count accumulator's one entry twice, and flattens
the two array outputs. With the four output arrays known (the kept entries of `pred` and `labels`; the sum of the kept losses
and the number of kept entries over all entries), the three results are the specification's: `total / count / count` and
the flattened kept entries.
-/

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Scalars
open Cert.MaskedLoss (loss flatKept keep total count reshape_apply)

variable (m : (ℓ : Loc nD τ sig) → Buf (Elt Ideal) ℓ) (ρ : Dev nD → PrngReg)

/-! ## The four output arrays as the host finds them after the region -/

theorem arr_pred (c : Dev nD) : (Pipeline.withArrays (cfgs 0).spec c (V0 m c) (fun w => (dats m 0 c).arrAt w (cfgs 0).N) (Proc.devRef .tc main_v0_0)) = keptPred m c :=
  (Pipeline.withArrays_arr spec0 launch0.win.arr_inj c _ _ 3).trans (final3 m c)
theorem arr_labels (c : Dev nD) : (Pipeline.withArrays (cfgs 0).spec c (V0 m c) (fun w => (dats m 0 c).arrAt w (cfgs 0).N) (Proc.devRef .tc main_v0_1)) = keptLabels m c :=
  (Pipeline.withArrays_arr spec0 launch0.win.arr_inj c _ _ 4).trans (final4 m c)
theorem arr_total (c : Dev nD) : (Pipeline.withArrays (cfgs 0).spec c (V0 m c) (fun w => (dats m 0 c).arrAt w (cfgs 0).N) (Proc.devRef .tc main_v0_2)) = fun _ => finalTotal m c :=
  (Pipeline.withArrays_arr spec0 launch0.win.arr_inj c _ _ 5).trans (final5 m c)
theorem arr_count (c : Dev nD) : (Pipeline.withArrays (cfgs 0).spec c (V0 m c) (fun w => (dats m 0 c).arrAt w (cfgs 0).N) (Proc.devRef .tc main_v0_3)) = fun _ => finalCount m c :=
  (Pipeline.withArrays_arr spec0 launch0.win.arr_inj c _ _ 6).trans (final6 m c)

/-! ## The host's lines after the region -/

/-- The first array result: the kept entries of `pred`, flattened. -/
theorem tail_pred (c : Dev nD) : Pipeline.afterTail₀ cfgs (dats m) 0 (V0 m) [hostOps1] c main_v5
    = flatKept (m ((c : Thread nD τ).loc main_arg0)) (m ((c : Thread nD τ).loc main_arg2)) := by
  unfold Pipeline.afterTail₀
  show StableHlo.after hostOps1 _ (Proc.devRef .tc main_v5) = _
  after_results
  funext i
  show shapeCast S33554432 (Pipeline.withArrays (cfgs 0).spec c (V0 m c) (fun w => (dats m 0 c).arrAt w (cfgs 0).N) (Proc.devRef .tc main_v0_0)) shapeCasts_S8192x4096_S33554432 i = _
  rw [arr_pred m c]
  exact reshape_apply (keptPred m c) _ i

/-- The second array result: the kept entries of `labels`, flattened. -/
theorem tail_labels (c : Dev nD) : Pipeline.afterTail₀ cfgs (dats m) 0 (V0 m) [hostOps1] c main_v6
    = flatKept (m ((c : Thread nD τ).loc main_arg1)) (m ((c : Thread nD τ).loc main_arg2)) := by
  unfold Pipeline.afterTail₀
  show StableHlo.after hostOps1 _ (Proc.devRef .tc main_v6) = _
  after_results
  funext i
  show shapeCast S33554432 (Pipeline.withArrays (cfgs 0).spec c (V0 m c) (fun w => (dats m 0 c).arrAt w (cfgs 0).N) (Proc.devRef .tc main_v0_1)) shapeCasts_S8192x4096_S33554432 i = _
  rw [arr_labels m c]
  exact reshape_apply (keptLabels m c) _ i

/-- The scalar result: the loss accumulator's entry divided twice by the count accumulator's. -/
theorem tail_loss (c : Dev nD) : Pipeline.afterTail₀ cfgs (dats m) 0 (V0 m) [hostOps1] c main_v4
    = fun _ => loss (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  funext i
  show Ideal.div (Ideal.div
      (shapeCast S_ (Pipeline.withArrays (cfgs 0).spec c (V0 m c) (fun w => (dats m 0 c).arrAt w (cfgs 0).N) (Proc.devRef .tc main_v0_2)) shapeCasts_S1x1_S_ i)
      (shapeCast S_ (Pipeline.withArrays (cfgs 0).spec c (V0 m c) (fun w => (dats m 0 c).arrAt w (cfgs 0).N) (Proc.devRef .tc main_v0_3)) shapeCasts_S1x1_S_ i))
      (shapeCast S_ (Pipeline.withArrays (cfgs 0).spec c (V0 m c) (fun w => (dats m 0 c).arrAt w (cfgs 0).N) (Proc.devRef .tc main_v0_3)) shapeCasts_S1x1_S_ i) = _
  rw [arr_total m c, arr_count m c]
  show Ideal.div (Ideal.div (finalTotal m c) (finalCount m c)) (finalCount m c) = _
  rw [finalTotal_eq, finalCount_eq]
  rfl

/-! ## The run -/

/-- Every weakly fair execution of the kernel's program terminates with its three results at the specification's values
    of the argument arrays, the arguments unchanged. -/
theorem run : θ_run defs (onTc (τ := τ) (main (F := Ideal))) ⟨m, fun _ => 0, ρ⟩ fun r => ∀ c : Dev nD,
      r.2.mem ((c.tc : Thread nD τ).loc main_v4)
        = (fun _ => loss (m ((c : Thread nD τ).loc main_arg0)) (m ((c : Thread nD τ).loc main_arg1)) (m ((c : Thread nD τ).loc main_arg2)))
      ∧ r.2.mem ((c.tc : Thread nD τ).loc main_v5) = flatKept (m ((c : Thread nD τ).loc main_arg0)) (m ((c : Thread nD τ).loc main_arg2))
      ∧ r.2.mem ((c.tc : Thread nD τ).loc main_v6) = flatKept (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (by decide)).trans (tail_loss m c),
      ((h c).2 main_v5 (by decide)).trans (tail_pred m c),
      ((h c).2 main_v6 (by decide)).trans (tail_labels m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.LibWordCount.lean ====
import Idealize.ShloMosaic.PureOps.Reduce
import Idealize.ShloMosaic.PureOps.Ideal

/-!
# Counting with wrapping 32-bit words

General lemmas about a sum of 32-bit words taken with the wrapping addition `IntOp.addi`.

* `toNat_fold_addi`: the unsigned value of the wrapped sum is the sum of the unsigned values
  modulo `2 ^ 32`.
* `toInt_fold_addi`: when every word is `0` or `1` and there are fewer than `2 ^ 31` of them the
  sum never wraps, so its signed value is the number of ones.
* `coe_sum`: the inclusion of the reals in the extended reals commutes with finite sums.
* `count_eq_sum`: hence the signed value of such a wrapped sum, as an extended real, is the sum of the
  signed values of the words, each taken as an extended real: counting with integers and then
  converting gives what converting each word and adding the results gives.
-/

open Finset

namespace Idealize.ShloMosaic.WordCount

/-- The unsigned value of a wrapped sum of words is the sum of their unsigned values modulo `2 ^ 32`. -/
theorem toNat_fold_addi {ι : Type*} [DecidableEq ι] (S : Finset ι) (g : ι → BitVec 32) :
    (S.fold IntOp.addi 0#32 g).toNat = (∑ i ∈ S, (g i).toNat) % 4294967296 := by
  induction S using Finset.induction_on with
  | empty => rfl
  | insert a S ha ih =>
    rw [Finset.fold_insert ha, Finset.sum_insert ha]
    show (g a + S.fold IntOp.addi 0#32 g).toNat = _
    rw [BitVec.toNat_add, ih]
    omega

/-- Words that are all `0` or `1`, fewer than `2 ^ 31` of them: the wrapped sum's signed value is the
    number of ones (the sum of the unsigned values), no wrap having occurred. -/
theorem toInt_fold_addi {ι : Type*} [DecidableEq ι] (S : Finset ι) (g : ι → BitVec 32)
    (hg : ∀ i ∈ S, (g i).toNat ≤ 1) (hS : S.card < 2147483648) :
    (S.fold IntOp.addi 0#32 g).toInt = ((∑ i ∈ S, (g i).toNat : ℕ) : ℤ) := by
  have hsum : ∑ i ∈ S, (g i).toNat ≤ S.card := by
    have := Finset.sum_le_card_nsmul S (fun i => (g i).toNat) 1 hg
    simpa using this
  have hN := toNat_fold_addi S g
  rw [BitVec.toInt_eq_toNat_cond, hN]
  have h1 : (∑ i ∈ S, (g i).toNat) % 4294967296 = ∑ i ∈ S, (g i).toNat := Nat.mod_eq_of_lt (by omega)
  rw [h1, if_pos (by norm_num; omega)]

/-- The inclusion of the reals in the extended reals commutes with finite sums. -/
theorem coe_sum {ι : Type*} [DecidableEq ι] (S : Finset ι) (f : ι → ℝ) :
    ((∑ i ∈ S, f i : ℝ) : EReal) = ∑ i ∈ S, (f i : EReal) := by
  induction S using Finset.induction_on with
  | empty => simp
  | insert a S ha ih => rw [Finset.sum_insert ha, Finset.sum_insert ha, EReal.coe_add, ih]

/-- A word that is `0` or `1` has the same signed and unsigned value. -/
theorem toInt_of_le_one (b : BitVec 32) (h : b.toNat ≤ 1) : b.toInt = (b.toNat : ℤ) := by
  rw [BitVec.toInt_eq_toNat_cond, if_pos (by norm_num; omega)]

/-- COUNT, THEN CONVERT = CONVERT, THEN ADD. Over a finite index type of fewer than `2 ^ 31` elements, the
    wrapped sum of words that are all `0` or `1`, read as a signed integer and then as an extended real, is the
    sum over the indices of each word read as a signed integer and then as an extended real. -/
theorem count_eq_sum {ι : Type*} [Fintype ι] [DecidableEq ι] (g : ι → BitVec 32) (hg : ∀ i, (g i).toNat ≤ 1)
    (hc : Fintype.card ι < 2147483648) :
    ((((Finset.univ : Finset ι).fold IntOp.addi 0#32 g).toInt : ℝ) : EReal) = ∑ i, (((g i).toInt : ℝ) : EReal) := by
  rw [toInt_fold_addi Finset.univ g (fun i _ => hg i) (by simpa using hc)]
  rw [← coe_sum]
  congr 1
  push_cast
  exact Finset.sum_congr rfl fun i _ => by rw [toInt_of_le_one (g i) (hg i)]; push_cast; rfl

/-- A one-bit word zero-extended to 32 bits is `0` or `1`. -/
theorem setWidth_bit_le_one (b : BitVec 1) : (b.setWidth 32).toNat ≤ 1 := by
  rw [BitVec.toNat_setWidth]
  have := b.isLt
  omega

end Idealize.ShloMosaic.WordCount
-- ==== Proof.RefSide.lean ====
import proofs.«102014_j33638183862597_1_alg».proof.Proof.Gen.ReferenceIdeal.Read
import proofs.«102014_j33638183862597_1_alg».proof.Proof.Flat
import proofs.«102014_j33638183862597_1_alg».proof.Proof.LibWordCount
import Idealize.ShloMosaic.Lib.ValueIdx
import Idealize.ShloMosaic.PureOps.Ideal.Laws

/-!
# The reference computes the specification

Read one operation at a time over the extended reals, the reference's three results are: the scalar
`total / count / count`, where `total` is ONE sum over all entries of the kept per-entry losses and `count` is the number of
kept entries, counted with wrapping 32-bit integers and then converted; and the kept entries of `pred` and of `labels`,
flattened. The count never wraps: there are 2^25 entries, each contributing 0 or 1, so converting the integer count is the
sum of the converted mask bits.
-/

noncomputable section

open Idealize.ShloMosaic Idealize.ShloMosaic.ValueIdx

namespace Cert.ReferenceIdeal.RefValue

open Cert.ReferenceIdeal Cert.ReferenceIdeal.Gen Cert.ReferenceIdeal.Read
open Cert.MaskedLoss (Arr Flat bit keep bce one total count loss unflat flatKept)

variable (x0 x1 : S8192x4096.Idx → EReal) (x2 : S8192x4096.Idx → BitVec 32)

/-- The mask: the score compared with the word `1`. -/
theorem mask_apply (i : S8192x4096.Idx) : val_main_v1 (F := Ideal) x2 i = bit (x2 i) := by
  rw [val_main_v1_apply, val_main_v0_apply, val_main_c_apply]
  rfl

/-- The per-entry loss. -/
theorem bce_apply (i : S8192x4096.Idx) : val_main_v10 (F := Ideal) x0 x1 i = bce (x0 i) (x1 i) := by
  rw [val_main_v10_apply, val_main_v5_apply, val_main_v3_apply, val_main_v2_apply, val_main_cst_apply, val_main_v4_apply,
    val_main_v9_apply, val_main_v8_apply, val_main_v7_apply, val_main_v6_apply]
  rfl

/-- The kept losses. -/
theorem kept_bce_apply (i : S8192x4096.Idx) :
    val_main_v14 (F := Ideal) x0 x1 x2 i = keep (x2 i) (bce (x0 i) (x1 i)) := by
  rw [val_main_v14_apply, mask_apply, bce_apply, val_main_call0_v1_apply, val_main_call0_v0_apply, val_main_cst_1_apply]
  rfl

/-- Their sum over all entries (the zero the sum starts from adds nothing). -/
theorem total_apply (i : S_.Idx) : val_main_v15 (F := Ideal) x0 x1 x2 i = total x0 x1 x2 := by
  rw [val_main_v15_apply, val_main_cst_2_apply]
  show Ideal.ofBits .f32 0x00000000#32 + _ = _
  rw [Ideal.ofBits_zero_f32, zero_add]
  unfold total
  exact Finset.sum_congr rfl fun j _ => kept_bce_apply x0 x1 x2 j

/-- There are 2^25 entries: fewer than 2^31. -/
theorem card_lt : Fintype.card S8192x4096.Idx < 2147483648 := by
  rw [Fintype.card_congr (idxEquiv2 (n0 := 8192) (n1 := 4096)), Fintype.card_prod, Fintype.card_fin, Fintype.card_fin]
  norm_num

/-- The number of kept entries: the integer count, converted, is the sum of the converted mask bits. -/
theorem count_apply (i : S_.Idx) : val_main_v13 (F := Ideal) x2 i = count x2 := by
  rw [val_main_v13_apply]
  show (((val_main_v12 (F := Ideal) x2 i).toInt : ℝ) : EReal) = _
  unfold val_main_v12
  rw [Host.reduce_eq_fold, Finset.filter_true_of_mem (fun j _ => funext fun a => a.elim0)]
  show ((((Finset.univ.fold IntOp.addi 0#32 (val_main_v11 (F := Ideal) x2)).toInt : ℝ) : EReal)) = _
  rw [WordCount.count_eq_sum (val_main_v11 (F := Ideal) x2) (fun j => WordCount.setWidth_bit_le_one (val_main_v1 (F := Ideal) x2 j)) card_lt]
  unfold Cert.MaskedLoss.count
  exact Finset.sum_congr rfl fun j _ => by rw [val_main_v11_apply, mask_apply]; rfl

/-- THE SCALAR RESULT. -/
theorem loss_eq : val_main_v17 (F := Ideal) x0 x1 x2 = fun _ => loss x0 x1 x2 := by
  funext i
  rw [val_main_v17_apply, val_main_v16_apply, total_apply, count_apply]
  rfl

/-- The kept entries of `pred`. -/
theorem kept_pred_apply (i : S8192x4096.Idx) : val_main_v18 (F := Ideal) x0 x2 i = keep (x2 i) (x0 i) := by
  rw [val_main_v18_apply, mask_apply, val_main_call1_v1_apply, val_main_call1_v0_apply, val_main_cst_3_apply]
  rfl

/-- The kept entries of `labels`. -/
theorem kept_labels_apply (i : S8192x4096.Idx) : val_main_v20 (F := Ideal) x1 x2 i = keep (x2 i) (x1 i) := by
  rw [val_main_v20_apply, mask_apply, val_main_call2_v1_apply, val_main_call2_v0_apply, val_main_cst_4_apply]
  rfl

/-- THE FIRST ARRAY RESULT. -/
theorem flat_pred_eq : val_main_v19 (F := Ideal) x0 x2 = flatKept x0 x2 := by
  funext i
  rw [val_main_v19_apply, kept_pred_apply]
  have e : idx_main_v19 i = unflat i := funext fun a => by match a with | ⟨0, _⟩ => rfl | ⟨1, _⟩ => rfl
  rw [e]
  rfl

/-- THE SECOND ARRAY RESULT. -/
theorem flat_labels_eq : val_main_v21 (F := Ideal) x1 x2 = flatKept x1 x2 := by
  funext i
  rw [val_main_v21_apply, kept_labels_apply]
  have e : idx_main_v21 i = unflat i := funext fun a => by match a with | ⟨0, _⟩ => rfl | ⟨1, _⟩ => rfl
  rw [e]
  rfl

end Cert.ReferenceIdeal.RefValue

end
-- ==== Proof.lean ====
/- The proof of `Cert.Claim`: a masked binary-cross-entropy loss over three [8192, 4096] arrays `pred`, `labels`,
   `scores`. An entry is kept when its score is the word `1`. Both programs return the scalar `total / count / count` —
   `total` the sum over all entries of the kept per-entry losses `max x 0 - x y + log (1 + exp (-|x|))`, `count` the number
   of kept entries — and the kept entries of `pred` and of `labels`, flattened row-major.

   The reference takes ONE sum over all 2^25 entries, and counts with wrapping 32-bit integers before converting. The kernel
   walks 64 tiles of 128 rows: at each it stores the tile's kept entries, and adds to two one-entry accumulators (zeroed at the
   first tile) the tile's sum of kept losses — 4096 columns first, then the 128 rows — and the tile's count, summed as numbers.
   Over the extended reals addition is commutative and associative, so the tiled, two-stage, running sum is the one sum
   (Spec.lean `sum_tiles`); the integer count cannot wrap (2^25 < 2^31), so converting it is the sum of the converted mask bits
   (LibWordCount.lean); `0 - a` is `-a`; every other operation is the same function on both sides. No finiteness is used.

   Modules: Spec.lean, Flat.lean (the specification); Pieces.lean, Body.lean (one run of the body: what it stores, and its
   arithmetic read entry by entry); Accum.lean (the accumulators point by point, by induction); Blocks.lean, Scalars.lean (the
   four output arrays after the run); KernelRun.lean (the host's lines after the region; the kernel's run); RefSide.lean (the
   reference's three results). The frames and the reference's run are the generated ones. -/
import proofs.«102014_j33638183862597_1_alg».proof.Defs
import proofs.«102014_j33638183862597_1_alg».proof.Proof.Gen.Kernel
import proofs.«102014_j33638183862597_1_alg».proof.Proof.Gen.Kernel.Frame
import proofs.«102014_j33638183862597_1_alg».proof.Proof.Gen.KernelIdeal
import proofs.«102014_j33638183862597_1_alg».proof.Proof.Gen.KernelIdeal.Frame
import proofs.«102014_j33638183862597_1_alg».proof.Proof.Gen.ReferenceIdeal
import proofs.«102014_j33638183862597_1_alg».proof.Proof.Gen.ReferenceIdeal.Run
import proofs.«102014_j33638183862597_1_alg».proof.Proof.Gen.ReferenceIdeal.Read
import proofs.«102014_j33638183862597_1_alg».proof.Proof.Gen.Pre_finite_inputs
import proofs.«102014_j33638183862597_1_alg».proof.Proof.KernelRun
import proofs.«102014_j33638183862597_1_alg».proof.Proof.RefSide
import Idealize.ShloMosaic.Adequacy
import Idealize.ShloMosaic.Init

noncomputable section

namespace Cert.Proof

open Idealize.ShloMosaic Idealize.SL.Sem

/-- The kernel as printed runs, and leaves its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Over the extended reals the two programs, from memories that agree on the arguments, end with the same three results:
    the specification's scalar and its two flattened arrays of kept entries. -/
theorem algebraic : Cert.algebraic_KernelIdeal_ReferenceIdeal := by
  intro m ρ m' ρ' _ hagree
  refine ⟨_, _, _, Cert.KernelIdeal.Result.run m ρ, ?_⟩
  refine (θ_run Cert.ReferenceIdeal.defs _ _).mono (fun _ h c => ?_) (Cert.ReferenceIdeal.Value.run (F := Ideal) m' ρ')
  obtain ⟨h17, h19, h21, ha0, ha1, ha2⟩ := h c
  obtain ⟨e0, e1, e2⟩ := hagree c
  refine ⟨h17.trans ?_, h19.trans ?_, h21.trans ?_, ha0, ha1, ha2⟩
  · rw [Cert.ReferenceIdeal.Read.val_main_v17_eq, Cert.ReferenceIdeal.RefValue.loss_eq, e0, e1, e2]
    rfl
  · rw [Cert.ReferenceIdeal.Read.val_main_v19_eq, Cert.ReferenceIdeal.RefValue.flat_pred_eq, e0, e2]
  · rw [Cert.ReferenceIdeal.Read.val_main_v21_eq, Cert.ReferenceIdeal.RefValue.flat_labels_eq, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
